-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S2048x16384 : Shape := ⟨2, ![2048, 16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S2048x16384 : S_.BroadcastsInDim S2048x16384 (![] : Fin 0 → Fin S2048x16384.rank)
  reducesTo_S2048x16384_S_d0_1 : S2048x16384.ReducesTo [0, 1] S_

variable [Facts]

def fn {F : FTy → Type} [FloatOps F] (main_arg0 : FVec F S16384 .f32) (main_arg1 : FVec F S16384 .f32) (main_arg2 : FVec F S2048x16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S2048x16384 .f32 := Host.absf main_arg2
  let main_cst_2 : FVec F S_ .f32 := constant S_ .f32 0x7F800000#32
  let main_v10 : FVec F S2048x16384 .f32 := broadcastInDim S2048x16384 ![] bcast_S_S2048x16384 main_cst_2
  let main_v11 : IVec S2048x16384 1 := cmpf .olt main_v9 main_v10
  let main_c_3 : IVec S_ 1 := constantI S_ 1 1#1
  let main_v12 : IVec S_ 1 := (fun x v => Host.reduce IntOp.andi x v reducesTo_S2048x16384_S_d0_1 h_S_) main_v11 main_c_3
  let main_v13 : IVec S_ 1 := andi main_v8 main_v12
  main_v13
-- ==== Kernel.lean ====
abbrev S16384 : Shape := ⟨1, ![16384]⟩
abbrev S2048x16384 : Shape := ⟨2, ![2048, 16384]⟩
abbrev S1x16384 : Shape := ⟨2, ![1, 16384]⟩
abbrev S64x16384 : Shape := ⟨2, ![64, 16384]⟩

abbrev nBuf : Space → Nat
  | .hbm => 6
  | .vmem => 6
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S2048x16384, .f32⟩
  | .hbm, ⟨3, _⟩ => ⟨S1x16384, .f32⟩
  | .hbm, ⟨4, _⟩ => ⟨S1x16384, .f32⟩
  | .hbm, ⟨5, _⟩ => ⟨S2048x16384, .f32⟩
  | .local _ .vmem, ⟨0, _⟩ => ⟨S1x16384, .f32⟩
  | .local _ .vmem, ⟨1, _⟩ => ⟨S1x16384, .f32⟩
  | .local _ .vmem, ⟨2, _⟩ => ⟨S64x16384, .f32⟩
  | .local _ .vmem, ⟨3, _⟩ => ⟨S64x16384, .f32⟩
  | .local _ .vmem, ⟨4, _⟩ => ⟨S64x16384, .f32⟩
  | .local _ .vmem, ⟨5, _⟩ => ⟨S64x16384, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S64x16384_S64x16384_0_0 : ∀ a, (![0, 0] : Fin 2 → Nat) a + S64x16384.size a ≤ S64x16384.size a
  h_S64x16384 : 0 < S64x16384.numel
  broadcasts_S1x16384_S64x16384 : S1x16384.Broadcasts S64x16384
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x16384.size a
  hwx0_0 : ∀ i : grid0.Coords, EltTy.bits .f32 = 32 ∨ (Rect.block (s := S1x16384) S1x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S2048x16384.size a
  hwx0_2 : ∀ i : grid0.Coords, EltTy.bits .f32 = 32 ∨ (Rect.block (s := S2048x16384) S64x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16384.size a ≤ S2048x16384.size a
  hwx0_3 : ∀ i : grid0.Coords, EltTy.bits .f32 = 32 ∨ (Rect.block (s := S2048x16384) S64x16384.size (cc0_transform_3 i) (hinb0_3 i)).WholeWords (EltTy.packing .f32)

variable [Facts₀]

abbrev win0_0 : Pipeline.Window sig grid0 :=
  Pipeline.Window.ofSpec (Memref.whole main_v0) S1x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S2048x16384 : Shape := ⟨2, ![2048, 16384]⟩
abbrev S_ : Shape := ⟨0, ![]⟩
abbrev S1x16384 : Shape := ⟨2, ![1, 16384]⟩

abbrev nBuf : Space → Nat
  | .hbm => 14
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S2048x16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S1x16384, .f32⟩
  | .hbm, ⟨9, _⟩ => ⟨S2048x16384, .f32⟩
  | .hbm, ⟨10, _⟩ => ⟨S2048x16384, .f32⟩
  | .hbm, ⟨11, _⟩ => ⟨S1x16384, .f32⟩
  | .hbm, ⟨12, _⟩ => ⟨S2048x16384, .f32⟩
  | .hbm, ⟨13, _⟩ => ⟨S2048x16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)

variable [Facts₀]

class Facts : Prop extends Facts₀ where

variable [Facts]
-- ==== Proof.KernelBlocks.lean ====
/-
  The kernel, block by block, and then as one array.

  The grid has 32 points. At point `t` the body sees the one-row arrays of the mean and of `ℓ` whole (their block
  index is (0, 0) at every point), rows `64 t … 64 t + 63` of the noise, and writes the same rows of the result. Read at
  an entry `(r, k)` of its 64-row block, what the body stores is

      mean (0, k) + √(ℓ (0, k) · ℓ (0, k) + jitter) · noise (r, k).

  So every point writes a block of ONE function of the arrays the region finds — `rows` below, in which an entry
  `(r, k)` of the result reads the one-row arrays at `(0, k)` and the noise at `(r, k)` — and, the 32 blocks
  tiling the 2048 rows (row `r` lies in the block of point `r / 64`), the result array ends holding that function.
-/
import proofs.«178855_j86981677678680_2_alg».proof.Proof.Gen.KernelIdeal.Value
import Idealize.ShloMosaic.Lib.Pipeline.Value
import Idealize.ShloMosaic.Lib.ValueIdx

noncomputable section

namespace Cert.KernelIdeal.Sampled

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The entry of a one-row array that lies in the column of an entry of the result. -/
abbrev under (i : S2048x16384.Idx) : S1x16384.Idx := ix2 (0 : Fin 1) (i 1)

/-- The result as one function of the three arrays the region reads: the one-row mean `b0`, the one-row `b1`
    (the vector under the square root) and the noise `a2`. -/
abbrev rows (b0 b1 : S1x16384.Idx → Elt F .f32) (a2 : S2048x16384.Idx → Elt F .f32) : S2048x16384.Idx → Elt F .f32 :=
  fun i => FloatOps.addf (b0 (under i)) (FloatOps.mulf (FloatOps.sqrt (FloatOps.addf (FloatOps.mulf (b1 (under i)) (b1 (under i))) (Scalar.ofBits .f32 0x358637BD#32))) (a2 i))

/-- The block indices over the grid: the two one-row windows stay at block (0, 0); the noise's block moves with the
    result's; the result's block at point `t` is row block `t`, column block 0. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = win0_3.index t (1 : Fin 2)
    ∧ win0_3.index t (0 : Fin 2) = t.val ∧ win0_3.index t (1 : Fin 2) = 0 :=
  (by decide +kernel : ∀ t : Fin grid0.N, _)

/-- What the body leaves at an entry `y` of its block is `rows` at an entry `i` of the array, once each of its
    reads is the corresponding read of `rows` (the body reads the vector under the square root twice, at one place). -/
theorem block_entry (P0 P1 : Vec F S1x16384 .f32) (P2 : Vec F S64x16384 .f32) (y : S64x16384.Idx)
    (b0 b1 : S1x16384.Idx → Elt F .f32) (a2 : S2048x16384.Idx → Elt F .f32) (i : S2048x16384.Idx)
    (h0 : P0 (Value.ix3_0 y) = b0 (under i)) (h1 : P1 (Value.ix3_1 y) = b1 (under i))
    (h2 : P2 (Value.ix3_3 y) = a2 i) :
    Value.E3 P0 P1 P2 y = rows b0 b1 a2 i := by
  show FloatOps.addf (P0 (Value.ix3_0 y)) (FloatOps.mulf (FloatOps.sqrt (FloatOps.addf (FloatOps.mulf (P1 (Value.ix3_1 y)) (P1 (Value.ix3_1 y))) (Scalar.ofBits .f32 0x358637BD#32))) (P2 (Value.ix3_3 y)))
    = FloatOps.addf (b0 (under i)) (FloatOps.mulf (FloatOps.sqrt (FloatOps.addf (FloatOps.mulf (b1 (under i)) (b1 (under i))) (Scalar.ofBits .f32 0x358637BD#32))) (a2 i))
  rw [h0, h1, h2]

/-- What point `t` writes back is block `t` of `rows` of the arrays as the region finds them. -/
theorem flushed_eq (c : Dev nD) (t : Fin cfg0.N) :
    (dats m 0 c).flushed 3 t = ((cfg0.win 3).blk t).view.read (Elt F) (rows (V m c main_v0) (V m c main_v1) (V m c main_arg2)) := by
  show (cfg0.win 3).cut (grid0.coords t) ((dats m 0 c).after 3 t) = _
  rw [after0_3]
  unfold out0_3
  simp only [View.ld_unit_zero (S := S1x16384) hz, View.ld_unit_zero (S := S64x16384) hz]
  obtain ⟨e00, e01, e10, e11, e20, e21, e30, e31⟩ := idx_facts t
  funext j
  have hj0 : (j 0).val < 64 := (j 0).isLt
  have hj1 : (j 1).val < 16384 := (j 1).isLt
  refine (Value.canon3_eq (iblk m c 0 t) (iblk m c 1 t) (iblk m c 2 t) (win0_3.xinj (grid0.coords t) j)).trans ?_
  refine block_entry (iblk m c 0 t) (iblk m c 1 t) (iblk m c 2 t) (win0_3.xinj (grid0.coords t) j)
    (V m c main_v0) (V m c main_v1) (V m c main_arg2) (((cfg0.win 3).blk t).view.emb j) ?_ ?_ ?_
  · show V m c main_v0 (((cfg0.win 0).blk t).view.emb (Value.ix3_0 (win0_3.xinj (grid0.coords t) j)))
      = V m c main_v0 (under (((cfg0.win 3).blk t).view.emb j))
    refine congrArg (V m c main_v0) ?_
    funext a; apply Fin.ext
    match a with
    | ⟨0, _⟩ => show win0_0.index t (0 : Fin 2) * 1 + 1 * 0 = 0; omega
    | ⟨1, _⟩ => show win0_0.index t (1 : Fin 2) * 16384 + 1 * (j 1).val = win0_3.index t (1 : Fin 2) * 16384 + 1 * (j 1).val; omega
  · show V m c main_v1 (((cfg0.win 1).blk t).view.emb (Value.ix3_1 (win0_3.xinj (grid0.coords t) j)))
      = V m c main_v1 (under (((cfg0.win 3).blk t).view.emb j))
    refine congrArg (V m c main_v1) ?_
    funext a; apply Fin.ext
    match a with
    | ⟨0, _⟩ => show win0_1.index t (0 : Fin 2) * 1 + 1 * 0 = 0; omega
    | ⟨1, _⟩ => show win0_1.index t (1 : Fin 2) * 16384 + 1 * (j 1).val = win0_3.index t (1 : Fin 2) * 16384 + 1 * (j 1).val; omega
  · show V m c main_arg2 (((cfg0.win 2).blk t).view.emb (Value.ix3_3 (win0_3.xinj (grid0.coords t) j)))
      = V m c main_arg2 (((cfg0.win 3).blk t).view.emb j)
    refine congrArg (V m c main_arg2) ?_
    funext a; apply Fin.ext
    match a with
    | ⟨0, _⟩ => show win0_2.index t (0 : Fin 2) * 64 + 1 * (j 0).val = win0_3.index t (0 : Fin 2) * 64 + 1 * (j 0).val; omega
    | ⟨1, _⟩ => show win0_2.index t (1 : Fin 2) * 16384 + 1 * (j 1).val = win0_3.index t (1 : Fin 2) * 16384 + 1 * (j 1).val; omega

/-- An entry of the result array lies in point `t`'s block iff, on each axis, its coordinate lies in the block's range. -/
theorem mem_blk (t : Fin cfg0.N) (i : S2048x16384.Idx) :
    i ∈ ((cfg0.win 3).blk t).view.set ↔ ∀ a : Fin 2, win0_3.index t a * S64x16384.size a ≤ (i a).val ∧ (i a).val < win0_3.index t a * S64x16384.size a + S64x16384.size a := by
  show i ∈ ((View.whole main_v2).slice (win0_3.rect t)).set ↔ _
  rw [View.set_slice_whole, Rect.mem_set_unit]
  exact Iff.rfl

/-- Every entry of the result lies in some point's block: row `r` in the block of point `r / 64`. -/
theorem covered (i : S2048x16384.Idx) :
    ∃ t : Fin cfg0.N, (cfg0.win 3).flush t = true ∧ i ∈ ((cfg0.win 3).blk t).view.set := by
  have hi0 : (i 0).val < 2048 := (i 0).isLt
  have hi1 : (i 1).val < 16384 := (i 1).isLt
  have hN : cfg0.N = 32 := N_0
  obtain ⟨t, ht⟩ : ∃ t : Fin cfg0.N, t.val = (i 0).val / 64 := ⟨⟨(i 0).val / 64, by omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 16384 ≤ (i 1).val ∧ (i 1).val < win0_3.index t (1 : Fin 2) * 16384 + 16384; omega

/-- The result array after the run is `rows` of the arrays as the region finds them. -/
theorem final (c : Dev nD) :
    (dats m 0 c).arrAt 3 cfg0.N = rows (V m c main_v0) (V m c main_v1) (V m c main_arg2) :=
  (dats m 0 c).arrAt_eq_of_cover 3 (rows (V m c main_v0) (V m c main_v1) (V m c main_arg2))
    (fun t _ => flushed_eq m c t) covered

end Cert.KernelIdeal.Sampled

end
-- ==== Proof.Spec.lean ====
/-
  The specification of the sampled draws, with no program in sight.

  The three arguments are a mean vector `μ` and a vector `ℓ` of 16384 entries each and a noise array `ε` of
  2048 rows by 16384 columns. The result has the shape of `ε`; its entry in row `r`, column `k` is

      μ k + √(ℓ k · ℓ k + j) · ε (r, k)

  on the extended reals, where `j` is the jitter: the f32 word 0x358637BD (the float nearest to 1e-6), which both
  programs carry as the same literal, so it is never evaluated here. An entry depends on its own noise and on the
  two parameters of its column only: `col` names that column as an index of the parameter vectors.
-/
import Idealize.ShloMosaic.PureOps.Ideal
import Idealize.ShloMosaic.Lib.ValueIdx

noncomputable section

namespace Cert.Sampling

open Idealize.ShloMosaic Idealize.ShloMosaic.ValueIdx

/-- The shape of the two parameter vectors. -/
abbrev Params : Shape := ⟨1, ![16384]⟩
/-- The shape of the noise and of the result. -/
abbrev Draws : Shape := ⟨2, ![2048, 16384]⟩

/-- The column of an entry of the result, as an index of the parameter vectors. -/
abbrev col (i : Draws.Idx) : Params.Idx := ix1 (i 1)

/-- The jitter under the square root, as the word both programs spell. -/
abbrev jitter : EReal := Ideal.ofBits .f32 0x358637BD#32

/-- The draws: each entry is its column's mean plus its column's scale `√(ℓ² + jitter)` times its own noise. -/
def sample (μ ℓ : Params.Idx → EReal) (ε : Draws.Idx → EReal) : Draws.Idx → EReal :=
  fun i => μ (col i) + Ideal.sqrt (ℓ (col i) * ℓ (col i) + jitter) * ε i

theorem sample_apply (μ ℓ : Params.Idx → EReal) (ε : Draws.Idx → EReal) (i : Draws.Idx) :
    sample μ ℓ ε i = μ (col i) + Ideal.sqrt (ℓ (col i) * ℓ (col i) + jitter) * ε i := rfl

end Cert.Sampling

end
-- ==== Proof.KernelSample.lean ====
/-
  The kernel computes the specification.

  Before the region the program re-lays each parameter vector as a one-row array (same elements, row-major), so the
  entry `(0, k)` of the one-row array is entry `k` of the vector. The block-by-block function of the kernel, which
  reads the one-row arrays under an entry's column, is therefore the specification of the three arguments: the mean
  and the vector under the square root at the entry's column, the noise at the entry, the same jitter literal, and the
  same operations on the extended reals.
-/
import proofs.«178855_j86981677678680_2_alg».proof.Proof.KernelBlocks
import proofs.«178855_j86981677678680_2_alg».proof.Proof.Spec
import Idealize.ShloMosaic.Lib.StableHlo.Run

noncomputable section

namespace Cert.KernelIdeal.Sampled

open Cert.KernelIdeal Cert.KernelIdeal.Gen Idealize.ShloMosaic Idealize.ShloMosaic.TcCoe Idealize.SL.Sem
open Idealize.ShloMosaic.ValueIdx Cert.Sampling

/-- A vector re-laid as one row, read at an entry of the row, is the vector at that entry's column. -/
theorem row_read {α : Type} (x : S16384.Idx → α) (j : S1x16384.Idx) :
    shapeCast S1x16384 x shapeCasts_S16384_S1x16384 j = x (ix1 (j 1)) := by
  have h0 : (j 0).val < 1 := (j 0).isLt
  refine shapeCast_apply x shapeCasts_S16384_S1x16384 j (ix1 (j 1)) ?_
  rw [Shape.rowMajor_val_one, Shape.rowMajor_val_two]
  show (j 1).val = (j 0).val * 16384 + (j 1).val
  omega

section
variable {F : FTy → Type} [FloatOps F]
variable (m : (ℓ : Loc nD τ sig) → Buf (Elt F) ℓ)

/-- The region finds the mean re-laid as one row. -/
theorem V_mean (c : Dev nD) :
    (V m c main_v0 : S1x16384.Idx → Elt F .f32)
      = shapeCast S1x16384 (m ((c : Thread nD τ).loc main_arg0) : S16384.Idx → Elt F .f32) shapeCasts_S16384_S1x16384 := by
  dsimp only [V, hostOps0]; after_results; rfl

/-- The region finds the vector under the square root re-laid as one row. -/
theorem V_scale (c : Dev nD) :
    (V m c main_v1 : S1x16384.Idx → Elt F .f32)
      = shapeCast S1x16384 (m ((c : Thread nD τ).loc main_arg1) : S16384.Idx → Elt F .f32) shapeCasts_S16384_S1x16384 := by
  dsimp only [V, hostOps0]; after_results; rfl

end

/-- At the ideal instance, the kernel's function of the two re-laid vectors and the noise is the specification of the
    vectors themselves and the noise. -/
theorem rows_relaid (x0 x1 : S16384.Idx → Elt Ideal .f32) (a2 : S2048x16384.Idx → Elt Ideal .f32) :
    rows (F := Ideal) (shapeCast S1x16384 x0 shapeCasts_S16384_S1x16384) (shapeCast S1x16384 x1 shapeCasts_S16384_S1x16384) a2
      = sample x0 x1 a2 := by
  funext i
  show FloatOps.addf (F := Ideal) (shapeCast S1x16384 x0 shapeCasts_S16384_S1x16384 (under i))
      (FloatOps.mulf (F := Ideal) (FloatOps.sqrt (F := Ideal) (FloatOps.addf (F := Ideal)
        (FloatOps.mulf (F := Ideal) (shapeCast S1x16384 x1 shapeCasts_S16384_S1x16384 (under i))
          (shapeCast S1x16384 x1 shapeCasts_S16384_S1x16384 (under i)))
        (Scalar.ofBits (F := Ideal) .f32 0x358637BD#32))) (a2 i)) = sample x0 x1 a2 i
  rw [row_read x0 (under i), row_read x1 (under i)]
  rfl

variable (m : (ℓ : Loc nD τ sig) → Buf (Elt Ideal) ℓ) (ρ : Dev nD → PrngReg)

/-- So the kernel's function of the arrays the region finds is the specification of the arguments. -/
theorem rows_eq_sample (c : Dev nD) :
    rows (F := Ideal) (V m c main_v0) (V m c main_v1) (V m c main_arg2)
      = sample (m ((c : Thread nD τ).loc main_arg0)) (m ((c : Thread nD τ).loc main_arg1)) (m ((c : Thread nD τ).loc main_arg2)) := by
  rw [V_mean m c, V_scale m c, V_main_arg2 m c]
  exact rows_relaid _ _ _

/-- The kernel's run, read: the result array ends at the specification of the three arguments, which end unchanged. -/
theorem run : θ_run defs (onTc (τ := τ) (main (F := Ideal))) ⟨m, fun _ => 0, ρ⟩ fun r => ∀ c : Dev nD,
      r.2.mem ((c : Thread nD τ).loc main_v2)
        = sample (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (rows_eq_sample m c)), (h c).2⟩)
    (Cert.KernelIdeal.Value.run_blocks m ρ)

end Cert.KernelIdeal.Sampled

end
-- ==== Proof.RefSample.lean ====
/-
  The reference computes the specification.

  Read one operation at a time, the reference's result at an entry `i` is the sum of the mean, broadcast along the
  rows, and the product of the broadcast scale `√(ℓ · ℓ + jitter)` with the noise. Each of the two broadcasts of a
  parameter vector — first to one row, then to all 2048 rows — reads the vector at the entry's column, so the chain of
  reads ends at `col i`; the host's square root and the jitter literal are the specification's own.
-/
import proofs.«178855_j86981677678680_2_alg».proof.Proof.Gen.ReferenceIdeal.Read
import proofs.«178855_j86981677678680_2_alg».proof.Proof.Spec

noncomputable section

namespace Cert.ReferenceIdeal.RefValue

open Idealize.ShloMosaic Idealize.ShloMosaic.ValueIdx
open Cert.ReferenceIdeal Cert.ReferenceIdeal.Read Cert.Sampling

/-- Through the two broadcasts of the scale, an entry reads the parameter vector at its column. -/
theorem scale_col (i : S2048x16384.Idx) : idx_main_v4 (idx_main_v5 i) = col i :=
  funext fun a => match a with | ⟨0, _⟩ => rfl

/-- Through the two broadcasts of the mean, an entry reads the parameter vector at its column. -/
theorem mean_col (i : S2048x16384.Idx) : idx_main_v7 (idx_main_v8 i) = col i :=
  funext fun a => match a with | ⟨0, _⟩ => rfl

/-- The reference's result, as a function of its three arguments, is the specification. -/
theorem reference_eq (μ ℓ : FVec Ideal S16384 .f32) (ε : FVec Ideal S2048x16384 .f32) :
    val_main_v9 (F := Ideal) μ ℓ ε = sample μ ℓ ε := by
  funext i
  rw [val_main_v9_apply, val_main_v8_apply, val_main_v7_apply, val_main_v6_apply, val_main_v5_apply,
    val_main_v4_apply, val_main_v3_apply, val_main_v2_apply, val_main_v0_apply, val_main_v1_apply,
    val_main_cst_apply, scale_col, mean_col]
  rfl

end Cert.ReferenceIdeal.RefValue

end
-- ==== Proof.lean ====
/-
  The certificate of the diagonal-Gaussian sampler: `μ + √(ℓ · ℓ + jitter) · ε`, the parameter vectors `μ` and `ℓ`
  broadcast along the 2048 rows of the noise `ε`.

  The kernel computes it 64 rows at a time over a grid of 32 points, reading the two parameter vectors re-laid as
  one-row arrays; the reference computes it in one piece on the host, broadcasting each parameter vector first to one
  row and then to all rows. On the extended reals both are the same function of the three arguments, entry by entry
  (Proof/Spec.lean): the same additions and multiplications in the same order, one square root, one jitter literal.
  No algebraic law is needed, so the inputs' finiteness is never used.

  * Proof/KernelBlocks.lean: what each grid point writes back is a block of one function of the arrays the region
    finds; the blocks tile the result.
  * Proof/KernelSample.lean: that function of the re-laid arrays is the specification of the arguments; the kernel's run.
  * Proof/RefSample.lean: the reference's operations, read at an entry, are the specification.

  The three programs' frames are their runs with the result forgotten; the idealization rewrote nothing, so there
  is nothing to preserve.
-/
import proofs.«178855_j86981677678680_2_alg».proof.Defs
import proofs.«178855_j86981677678680_2_alg».proof.Proof.Gen.Kernel
import proofs.«178855_j86981677678680_2_alg».proof.Proof.Gen.Kernel.Frame
import proofs.«178855_j86981677678680_2_alg».proof.Proof.Gen.KernelIdeal
import proofs.«178855_j86981677678680_2_alg».proof.Proof.Gen.KernelIdeal.Frame
import proofs.«178855_j86981677678680_2_alg».proof.Proof.Gen.KernelIdeal.Value
import proofs.«178855_j86981677678680_2_alg».proof.Proof.Gen.ReferenceIdeal
import proofs.«178855_j86981677678680_2_alg».proof.Proof.Gen.ReferenceIdeal.Run
import proofs.«178855_j86981677678680_2_alg».proof.Proof.Gen.ReferenceIdeal.Read
import proofs.«178855_j86981677678680_2_alg».proof.Proof.Gen.Pre_finite_inputs
import proofs.«178855_j86981677678680_2_alg».proof.Proof.KernelSample
import proofs.«178855_j86981677678680_2_alg».proof.Proof.RefSample
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result array and the reference's both end at the
    specification of those arguments. -/
theorem algebraic : Cert.algebraic_KernelIdeal_ReferenceIdeal := by
  intro m ρ m' ρ' _ hagree
  refine ⟨_, Cert.KernelIdeal.Sampled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
